-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096 : Shape := ⟨3, ![1, 16, 4096]⟩
abbrev S11008x128x32 : Shape := ⟨3, ![11008, 128, 32]⟩
abbrev S11008x128 : Shape := ⟨2, ![11008, 128]⟩
abbrev S11008 : Shape := ⟨1, ![11008]⟩
abbrev S_ : Shape := ⟨0, ![]⟩

class Facts : Prop where
  bcast_S_S1x16x4096 : S_.BroadcastsInDim S1x16x4096 (![] : Fin 0 → Fin S1x16x4096.rank)
  reducesTo_S1x16x4096_S_d0_1_2 : S1x16x4096.ReducesTo [0, 1, 2] S_
  h_S_ : 0 < S_.numel
  bcast_S_S11008x128 : S_.BroadcastsInDim S11008x128 (![] : Fin 0 → Fin S11008x128.rank)
  reducesTo_S11008x128_S_d0_1 : S11008x128.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S1x16x4096 .f32) (main_arg1 : IVec S11008x128x32 32) (main_arg2 : FVec F S11008x128 .f32) (main_arg3 : FVec F S11008 .f32) : IVec S_ 1 :=
  let main_v0 : FVec F S1x16x4096 .f32 := Host.absf main_arg0
  let main_cst : FVec F S_ .f32 := constant S_ .f32 0x7F800000#32
  let main_v1 : FVec F S1x16x4096 .f32 := broadcastInDim S1x16x4096 ![] bcast_S_S1x16x4096 main_cst
  let main_v2 : IVec S1x16x4096 1 := cmpf .olt main_v0 main_v1
  let main_c : IVec S_ 1 := constantI S_ 1 1#1
  let main_v3 : IVec S_ 1 := (fun x v => Host.reduce IntOp.andi x v reducesTo_S1x16x4096_S_d0_1_2 h_S_) main_v2 main_c
  let main_v4 : FVec F S11008x128 .f32 := Host.absf main_arg2
  let main_cst_0 : FVec F S_ .f32 := constant S_ .f32 0x7F800000#32
  let main_v5 : FVec F S11008x128 .f32 := broadcastInDim S11008x128 ![] bcast_S_S11008x128 main_cst_0
  let main_v6 : IVec S11008x128 1 := cmpf .olt main_v4 main_v5
  let main_c_1 : IVec S_ 1 := constantI S_ 1 1#1
  let main_v7 : IVec S_ 1 := (fun x v => Host.reduce IntOp.andi x v reducesTo_S11008x128_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S1x16x4096 : Shape := ⟨3, ![1, 16, 4096]⟩
abbrev S11008x128x32 : Shape := ⟨3, ![11008, 128, 32]⟩
abbrev S11008x128 : Shape := ⟨2, ![11008, 128]⟩
abbrev S11008 : Shape := ⟨1, ![11008]⟩
abbrev S16x4096 : Shape := ⟨2, ![16, 4096]⟩
abbrev S11008x4096 : Shape := ⟨2, ![11008, 4096]⟩
abbrev S128 : Shape := ⟨1, ![128]⟩
abbrev S128x1 : Shape := ⟨2, ![128, 1]⟩
abbrev S4096 : Shape := ⟨1, ![4096]⟩
abbrev S1x4096 : Shape := ⟨2, ![1, 4096]⟩
abbrev S_ : Shape := ⟨0, ![]⟩
abbrev S128x4096 : Shape := ⟨2, ![128, 4096]⟩
abbrev S16x11008 : Shape := ⟨2, ![16, 11008]⟩
abbrev S256x4096 : Shape := ⟨2, ![256, 4096]⟩
abbrev S256x128 : Shape := ⟨2, ![256, 128]⟩
abbrev S256 : Shape := ⟨1, ![256]⟩
abbrev S16x256 : Shape := ⟨2, ![16, 256]⟩
abbrev S1x256 : Shape := ⟨2, ![1, 256]⟩
abbrev S1x16x11008 : Shape := ⟨3, ![1, 16, 11008]⟩

abbrev nBuf : Space → Nat
  | .hbm => 34
  | .vmem => 10
  | .smem => 0
  | _ => 0

abbrev bufTy : (tb : Table) → Fin (tcTables nBuf tb) → BufTy
  | .hbm, ⟨0, _⟩ => ⟨S1x16x4096, .f32⟩
  | .hbm, ⟨1, _⟩ => ⟨S11008x128x32, .i32⟩
  | .hbm, ⟨2, _⟩ => ⟨S11008x128, .f32⟩
  | .hbm, ⟨3, _⟩ => ⟨S11008, .f32⟩
  | .hbm, ⟨4, _⟩ => ⟨S16x4096, .f32⟩
  | .hbm, ⟨5, _⟩ => ⟨S11008x4096, .i32⟩
  | .hbm, ⟨6, _⟩ => ⟨S128, .i32⟩
  | .hbm, ⟨7, _⟩ => ⟨S128x1, .i32⟩
  | .hbm, ⟨8, _⟩ => ⟨S4096, .i32⟩
  | .hbm, ⟨9, _⟩ => ⟨S1x4096, .i32⟩
  | .hbm, ⟨10, _⟩ => ⟨S_, .i32⟩
  | .hbm, ⟨11, _⟩ => ⟨S_, .i32⟩
  | .hbm, ⟨12, _⟩ => ⟨S1x4096, .i32⟩
  | .hbm, ⟨13, _⟩ => ⟨S1x4096, .i32⟩
  | .hbm, ⟨14, _⟩ => ⟨S1x4096, .i32⟩
  | .hbm, ⟨15, _⟩ => ⟨S_, .i32⟩
  | .hbm, ⟨16, _⟩ => ⟨S1x4096, .i32⟩
  | .hbm, ⟨17, _⟩ => ⟨S1x4096, .i1⟩
  | .hbm, ⟨18, _⟩ => ⟨S1x4096, .i32⟩
  | .hbm, ⟨19, _⟩ => ⟨S1x4096, .i32⟩
  | .hbm, ⟨20, _⟩ => ⟨S_, .i32⟩
  | .hbm, ⟨21, _⟩ => ⟨S1x4096, .i32⟩
  | .hbm, ⟨22, _⟩ => ⟨S1x4096, .i1⟩
  | .hbm, ⟨23, _⟩ => ⟨S1x4096, .i1⟩
  | .hbm, ⟨24, _⟩ => ⟨S_, .i32⟩
  | .hbm, ⟨25, _⟩ => ⟨S1x4096, .i32⟩
  | .hbm, ⟨26, _⟩ => ⟨S1x4096, .i32⟩
  | .hbm, ⟨27, _⟩ => ⟨S1x4096, .i32⟩
  | .hbm, ⟨28, _⟩ => ⟨S128x4096, .i32⟩
  | .hbm, ⟨29, _⟩ => ⟨S128x4096, .i32⟩
  | .hbm, ⟨30, _⟩ => ⟨S128x4096, .i1⟩
  | .hbm, ⟨31, _⟩ => ⟨S128x4096, .bf16⟩
  | .hbm, ⟨32, _⟩ => ⟨S16x11008, .f32⟩
  | .hbm, ⟨33, _⟩ => ⟨S1x16x11008, .f32⟩
  | .local _ .vmem, ⟨0, _⟩ => ⟨S16x4096, .f32⟩
  | .local _ .vmem, ⟨1, _⟩ => ⟨S256x4096, .i32⟩
  | .local _ .vmem, ⟨2, _⟩ => ⟨S256x4096, .i32⟩
  | .local _ .vmem, ⟨3, _⟩ => ⟨S256x128, .f32⟩
  | .local _ .vmem, ⟨4, _⟩ => ⟨S256x128, .f32⟩
  | .local _ .vmem, ⟨5, _⟩ => ⟨S256, .f32⟩
  | .local _ .vmem, ⟨6, _⟩ => ⟨S256, .f32⟩
  | .local _ .vmem, ⟨7, _⟩ => ⟨S128x4096, .bf16⟩
  | .local _ .vmem, ⟨8, _⟩ => ⟨S16x256, .f32⟩
  | .local _ .vmem, ⟨9, _⟩ => ⟨S16x256, .f32⟩
  | _, _ => ⟨S1x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x16x4096_S16x4096 : S1x16x4096.ShapeCasts S16x4096
  shapeCasts_S11008x128x32_S11008x4096 : S11008x128x32.ShapeCasts S11008x4096
  bcast_S128_S128x1_0 : S128.BroadcastsInDim S128x1 (![0] : Fin 1 → Fin S128x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S128x4096_0_1 : S1x4096.BroadcastsInDim S128x4096 (![0, 1] : Fin 2 → Fin S128x4096.rank)
  bcast_S128x1_S128x4096_0_1 : S128x1.BroadcastsInDim S128x4096 (![0, 1] : Fin 2 → Fin S128x4096.rank)
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x128_S256x128_0_0 : ∀ a, (![0, 0] : Fin 2 → Nat) a + S256x128.size a ≤ S256x128.size a
  h_S256x128 : 0 < S256x128.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  shapeCasts_S16x11008_S1x16x11008 : S16x11008.ShapeCasts S1x16x11008
  dot_S256x128_S128x4096_S256x4096_1_0_0_1_n_n_wf : DotDims.WF S256x128 S128x4096 S256x4096 [1] [0] [0] [1] [] []
  dot_S16x4096_S256x4096_S16x256_1_1_0_0_n_n_wf : DotDims.WF S16x4096 S256x4096 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S11008x128.size a
  hwx0_2 : ∀ i : grid0.Coords, EltTy.bits .f32 = 32 ∨ (Rect.block (s := S11008x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .bf16 = 32 ∨ (Rect.block (s := S128x4096) S128x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x11008.size a
  hwx0_5 : ∀ i : grid0.Coords, EltTy.bits .f32 = 32 ∨ (Rect.block (s := S16x11008) S16x256.size (cc0_transform_5 i) (hinb0_5 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf

abbrev win0_0 : Pipeline.Window sig grid0 :=
  Pipeline.Window.ofSpec (Memref.whole main_v0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x16x4096 : Shape := ⟨3, ![1, 16, 4096]⟩
abbrev S11008x128x32 : Shape := ⟨3, ![11008, 128, 32]⟩
abbrev S11008x128 : Shape := ⟨2, ![11008, 128]⟩
abbrev S11008 : Shape := ⟨1, ![11008]⟩
abbrev S11008x128x1 : Shape := ⟨3, ![11008, 128, 1]⟩
abbrev S_ : Shape := ⟨0, ![]⟩
abbrev S11008x4096 : Shape := ⟨2, ![11008, 4096]⟩
abbrev S1x16x11008 : Shape := ⟨3, ![1, 16, 11008]⟩
abbrev S1x1x11008 : Shape := ⟨3, ![1, 1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S1x16x4096, .f32⟩
  | .hbm, ⟨1, _⟩ => ⟨S11008x128x32, .i32⟩
  | .hbm, ⟨2, _⟩ => ⟨S11008x128, .f32⟩
  | .hbm, ⟨3, _⟩ => ⟨S11008, .f32⟩
  | .hbm, ⟨4, _⟩ => ⟨S11008x128x1, .f32⟩
  | .hbm, ⟨5, _⟩ => ⟨S11008x128x32, .f32⟩
  | .hbm, ⟨6, _⟩ => ⟨S_, .f32⟩
  | .hbm, ⟨7, _⟩ => ⟨S11008x128x32, .f32⟩
  | .hbm, ⟨8, _⟩ => ⟨S11008x128x32, .f32⟩
  | .hbm, ⟨9, _⟩ => ⟨S11008x128x32, .f32⟩
  | .hbm, ⟨10, _⟩ => ⟨S11008x128x32, .f32⟩
  | .hbm, ⟨11, _⟩ => ⟨S11008x4096, .f32⟩
  | .hbm, ⟨12, _⟩ => ⟨S1x16x11008, .f32⟩
  | .hbm, ⟨13, _⟩ => ⟨S1x1x11008, .f32⟩
  | .hbm, ⟨14, _⟩ => ⟨S1x16x11008, .f32⟩
  | .hbm, ⟨15, _⟩ => ⟨S1x16x11008, .f32⟩
  | _, _ => ⟨S1x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008x128_S11008x128x1_0_1 : S11008x128.BroadcastsInDim S11008x128x1 (![0, 1] : Fin 2 → Fin S11008x128x1.rank)
  bcast_S_S11008x128x32 : S_.BroadcastsInDim S11008x128x32 (![] : Fin 0 → Fin S11008x128x32.rank)
  bcast_S11008x128x1_S11008x128x32_0_1_2 : S11008x128x1.BroadcastsInDim S11008x128x32 (![0, 1, 2] : Fin 3 → Fin S11008x128x32.rank)
  shapeCasts_S11008x128x32_S11008x4096 : S11008x128x32.ShapeCasts S11008x4096
  bcast_S11008_S1x1x11008_2 : S11008.BroadcastsInDim S1x1x11008 (![2] : Fin 1 → Fin S1x1x11008.rank)
  bcast_S1x1x11008_S1x16x11008_0_1_2 : S1x1x11008.BroadcastsInDim S1x16x11008 (![0, 1, 2] : Fin 3 → Fin S1x16x11008.rank)
  dot_S1x16x4096_S11008x4096_S1x16x11008_2_1_01_0_n_n_wf : DotDims.WF S1x16x4096 S11008x4096 S1x16x11008 [2] [1] [0, 1] [0] [] []

variable [Facts₀]

def dot_S1x16x4096_S11008x4096_S1x16x11008_2_1_01_0_n_n : DotDims S1x16x4096 S11008x4096 S1x16x11008 where
  lhsContracting := [2]
  rhsContracting := [1]
  lhsNonContracting := [0, 1]
  rhsNonContracting := [0]
  lhsBatch := []
  rhsBatch := []
  wf := dot_S1x16x4096_S11008x4096_S1x16x11008_2_1_01_0_n_n_wf

class Facts : Prop extends Facts₀ where

variable [Facts]
-- ==== Proof.Spec.lean ====
/-
  A linear layer whose weights are stored in groups of 32 quantised integers sharing one scale.

  The arguments: activations `x[b, r, k]` (one batch, 16 rows, 4096 columns), quantised weights `q[o, g, p]`
  (11008 output features, 128 groups, 32 positions per group, signed 32-bit words), one scale `s[o, g]` per group,
  and a bias `b[o]`.  Column `k` of the layer's input lies in group `k / 32` at position `k % 32`, its dequantised
  weight towards output feature `o` is

      w[o, k] = s[o, k / 32] * (q[o, k / 32, k % 32] - 8),

  and the layer's result is `y[b, r, o] = (∑ k, x[b, r, k] * w[o, k]) + b[o]`, all of it on the extended reals:
  an integer word is read as the integer it denotes, exactly.

  Besides the specification this module holds the two small facts every route to it uses: the float patterns that
  spell the zero point `8`, and the sum of a family against a one-hot family (which is how a group's scale can be
  spread over the group's 32 columns by a matrix product with a 0/1 matrix).
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-- The group of 32 consecutive columns that column `k` lies in. -/
def grp (k : Fin 4096) : Fin 128 := ⟨k.val / 32, by have := k.isLt; omega⟩

/-- The position of column `k` inside its group. -/
def pos (k : Fin 4096) : Fin 32 := ⟨k.val % 32, Nat.mod_lt _ (by decide)⟩

/-- The dequantised weight of column `k` towards output feature `o`: the group's scale times the quantised integer
    less the zero point `8`. -/
def weight (q : (⟨3, ![11008, 128, 32]⟩ : Shape).Idx → BitVec 32) (s : (⟨2, ![11008, 128]⟩ : Shape).Idx → EReal)
    (o : Fin 11008) (k : Fin 4096) : EReal :=
  s (ix2 o (grp k)) * ((((q (ix3 o (grp k) (pos k))).toInt : ℝ) : EReal) - ((8 : ℝ) : EReal))

/-- Row `r` of the activations against the dequantised weights of output feature `o`, plus that feature's bias. -/
def entry (x : (⟨3, ![1, 16, 4096]⟩ : Shape).Idx → EReal) (q : (⟨3, ![11008, 128, 32]⟩ : Shape).Idx → BitVec 32)
    (s : (⟨2, ![11008, 128]⟩ : Shape).Idx → EReal) (b : (⟨1, ![11008]⟩ : Shape).Idx → EReal)
    (r : Fin 16) (o : Fin 11008) : EReal :=
  (∑ k : Fin 4096, x (ix3 (0 : Fin 1) r k) * weight q s o k) + b (ix1 o)

/-- The layer's result as one function of the four argument arrays, index by index. -/
def layer (x : (⟨3, ![1, 16, 4096]⟩ : Shape).Idx → EReal) (q : (⟨3, ![11008, 128, 32]⟩ : Shape).Idx → BitVec 32)
    (s : (⟨2, ![11008, 128]⟩ : Shape).Idx → EReal) (b : (⟨1, ![11008]⟩ : Shape).Idx → EReal) :
    (⟨3, ![1, 16, 11008]⟩ : Shape).Idx → EReal :=
  fun i => entry x q s b ⟨(i 1).val, (i 1).isLt⟩ ⟨(i 2).val, (i 2).isLt⟩

/-- The bfloat16 pattern `0x4100` denotes the real `8`. -/
theorem eight_bf16 : Ideal.ofBits .bf16 0x4100#16 = ((8 : ℝ) : EReal) := by
  simp [Ideal.ofBits, Ideal.ieee, -EReal.coe_mul]; norm_num

/-- The binary32 pattern `0x41000000` denotes the real `8`. -/
theorem eight_f32 : Ideal.ofBits .f32 0x41000000#32 = ((8 : ℝ) : EReal) := by
  simp [Ideal.ofBits, Ideal.ieee, -EReal.coe_mul]; norm_num

/-- A family summed against a one-hot family picks out one member: every other product is `f j * 0 = 0`, which holds on
    the extended reals whatever `f j` is. -/
theorem sum_mul_onehot {n : Nat} (f e : Fin n → EReal) (d : Fin n) (he : ∀ j, e j = if j = d then 1 else 0) :
    ∑ j : Fin n, f j * e j = f d := by
  have h : ∀ j : Fin n, f j * e j = if j = d then f j else 0 := fun j => by
    rw [he j]; split <;> simp
  simp only [h]
  rw [Finset.sum_ite_eq' Finset.univ d f]
  simp

end Cert.Dequant

end
-- ==== Proof.RefIsSpec.lean ====
/-
  The reference computes the specification.

  The reference dequantises the whole weight tensor `s[o, g] * (q[o, g, p] - 8)`, flattens the group and position axes
  into one column axis of length 4096, contracts that axis against the activations and adds the bias.  Flattening sends
  `(g, p)` to column `32 g + p`, so the flattened tensor at column `k` is the dequantised weight at group `k / 32`,
  position `k % 32` — the specification's `weight` — and the contraction and the bias are the specification's
  `entry` term by term.
-/
import proofs.«158141_j71262097375897_2_alg».proof.Proof.Gen.ReferenceIdeal.Read
import proofs.«158141_j71262097375897_2_alg».proof.Proof.Spec

noncomputable section

namespace Cert.Dequant.Ref

open Cert.ReferenceIdeal Cert.ReferenceIdeal.Read Idealize.ShloMosaic Idealize.ShloMosaic.ValueIdx Cert.Dequant

/-- One term of the reference's contraction: the activation at column `k` times the flattened dequantised tensor at
    `(o, k)`, which is the weight of group `k / 32`, position `k % 32`. -/
theorem term_eq (x0 : (⟨S1x16x4096, .f32⟩ : BufTy).Contents (Elt Ideal)) (x1 : (⟨S11008x128x32, .i32⟩ : BufTy).Contents (Elt Ideal))
    (x2 : (⟨S11008x128, .f32⟩ : BufTy).Contents (Elt Ideal)) (i : S1x16x11008.Idx) (k : Fin 4096) :
    x0 (lidx_main_v7 i k) * val_main_v6 (F := Ideal) x1 x2 (ridx_main_v7 i k)
      = x0 (ix3 (0 : Fin 1) (⟨(i 1).val, (i 1).isLt⟩ : Fin 16) k) * weight x1 x2 (⟨(i 2).val, (i 2).isLt⟩ : Fin 11008) k := by
  have h0 : (i 0).val < 1 := (i 0).isLt
  have h2 : (i 2).val < 11008 := (i 2).isLt
  have hk : k.val < 4096 := k.isLt
  have e0 : lidx_main_v7 i k = ix3 (0 : Fin 1) (⟨(i 1).val, (i 1).isLt⟩ : Fin 16) k := funext fun a => Fin.ext (by
    match a with
    | ⟨0, _⟩ => show (i 0).val = 0; omega
    | ⟨1, _⟩ => rfl
    | ⟨2, _⟩ => rfl)
  have e1 : idx_main_v6 (ridx_main_v7 i k) = ix3 (⟨(i 2).val, (i 2).isLt⟩ : Fin 11008) (grp k) (pos k) := funext fun a => Fin.ext (by
    match a with
    | ⟨0, _⟩ => show ((i 2).val * 4096 + k.val) / 4096 = (i 2).val; omega
    | ⟨1, _⟩ => show ((i 2).val * 4096 + k.val) / 32 % 128 = k.val / 32; omega
    | ⟨2, _⟩ => show ((i 2).val * 4096 + k.val) % 32 = k.val % 32; omega)
  have e2 : idx_main_v0 (idx_main_v4 (ix3 (⟨(i 2).val, (i 2).isLt⟩ : Fin 11008) (grp k) (pos k)))
      = ix2 (⟨(i 2).val, (i 2).isLt⟩ : Fin 11008) (grp k) := funext fun a => Fin.ext (by
    match a with
    | ⟨0, _⟩ => rfl
    | ⟨1, _⟩ => rfl)
  rw [e0, val_main_v6_apply, e1, val_main_v5_apply, val_main_v4_apply, val_main_v0_apply, e2, val_main_v3_apply,
    val_main_v1_apply, val_main_v2_apply, val_main_cst_apply]
  show _ * (x2 _ * ((((x1 _).toInt : ℝ) : EReal) - Ideal.ofBits .f32 0x41000000#32)) = _
  rw [eight_f32]
  rfl

/-- The reference's result, stage by stage, is the specification. -/
theorem ref_is_spec (x0 : (⟨S1x16x4096, .f32⟩ : BufTy).Contents (Elt Ideal)) (x1 : (⟨S11008x128x32, .i32⟩ : BufTy).Contents (Elt Ideal))
    (x2 : (⟨S11008x128, .f32⟩ : BufTy).Contents (Elt Ideal)) (x3 : (⟨S11008, .f32⟩ : BufTy).Contents (Elt Ideal)) :
    val_main_v10 (F := Ideal) x0 x1 x2 x3 = layer x0 x1 x2 x3 := by
  funext i
  have e3 : idx_main_v8 (idx_main_v9 i) = ix1 (⟨(i 2).val, (i 2).isLt⟩ : Fin 11008) := funext fun a => Fin.ext (by
    match a with
    | ⟨0, _⟩ => rfl)
  rw [val_main_v10_apply, val_main_v7_apply, val_main_v9_apply, val_main_v8_apply, e3,
    Finset.sum_congr rfl fun k _ => term_eq x0 x1 x2 i k]
  rfl

end Cert.Dequant.Ref

end
-- ==== Proof.Payload.lean ====
/-
  What one grid step computes, entry by entry.

  A step holds all 16 rows of the activations (`x0`), a tile of 256 output features of the quantised weights flattened
  to 4096 columns (`x1`), the tile's scales, one per feature and group (`x2`), the tile's bias (`x3`) and the 0/1 matrix
  `x4[g, k]` that is one exactly when column `k` lies in group `g`.  It computes

    * `scaleFull[o, k] = ∑ g, x2[o, g] * x4[g, k]` — a matrix product into a zero accumulator, which spreads each
      group's scale over the group's columns;
    * `wTile[o, k] = (x1[o, k] - 8) * scaleFull[o, k]` — the tile's dequantised weights;
    * `prod[r, o] = ∑ k, x0[r, k] * wTile[o, k]` — the activations against the tile, contracted over the columns;
    * and adds the bias `x3[o]` to every row.

  On the extended reals a change of float format is the identity, an integer word converts to the integer it denotes,
  and a matrix product into a zero accumulator is the plain sum of products.
-/
import proofs.«158141_j71262097375897_2_alg».proof.Proof.Gen.KernelIdeal.Skeleton
import proofs.«158141_j71262097375897_2_alg».proof.Proof.Spec
import Idealize.ShloMosaic.Lib.Pipeline.Value
import Idealize.ShloMosaic.Lib.ValueIdx
import Idealize.ShloMosaic.PureOps.Ideal.Laws

noncomputable section

namespace Cert.Dequant.Body

open Cert.KernelIdeal Cert.KernelIdeal.Gen Idealize.ShloMosaic Idealize.ShloMosaic.ValueIdx Cert.Dequant

/-- The scales of the tile spread over the columns: the product of the scales with the 0/1 matrix. -/
def scaleFull (x2 : Vec Ideal S256x128 .f32) (x4 : Vec Ideal S128x4096 .bf16) : FVec Ideal S256x4096 .f32 :=
  matmul dot_S256x128_S128x4096_S256x4096_1_0_0_1_n_n none
    (truncf .bf16 (x2 : FVec Ideal S256x128 .f32) bitsLt_bf16_f32 : FVec Ideal S256x128 .bf16)
    (shapeCast S128x4096 x4 shapeCasts_S128x4096_S128x4096 : FVec Ideal S128x4096 .bf16)
    (constant (F := Ideal) S256x4096 .f32 0x00000000#32)

/-- The tile's dequantised weights. -/
def wTile (x1 : Vec Ideal S256x4096 .i32) (x2 : Vec Ideal S256x128 .f32) (x4 : Vec Ideal S128x4096 .bf16) :
    FVec Ideal S256x4096 .bf16 :=
  mulf (subf (sitofp .bf16 (shapeCast S256x4096 x1 shapeCasts_S256x4096_S256x4096 : IVec S256x4096 32) : FVec Ideal S256x4096 .bf16)
      (broadcast S256x4096 (Scalar.ofBits (F := Ideal) .bf16 0x4100#16) : FVec Ideal S256x4096 .bf16))
    (truncf .bf16 (scaleFull x2 x4 : FVec Ideal S256x4096 .f32) bitsLt_bf16_f32 : FVec Ideal S256x4096 .bf16)

/-- The activations against the tile's weights. -/
def prod (x0 : Vec Ideal S16x4096 .f32) (x1 : Vec Ideal S256x4096 .i32) (x2 : Vec Ideal S256x128 .f32)
    (x4 : Vec Ideal S128x4096 .bf16) : FVec Ideal S16x256 .f32 :=
  matmul dot_S16x4096_S256x4096_S16x256_1_1_0_0_n_n none
    (truncf .bf16 (shapeCast S16x4096 x0 shapeCasts_S16x4096_S16x4096 : FVec Ideal S16x4096 .f32) bitsLt_bf16_f32 : FVec Ideal S16x4096 .bf16)
    (wTile x1 x2 x4 : FVec Ideal S256x4096 .bf16)
    (constant (F := Ideal) S16x256 .f32 0x00000000#32)

/-- The tile's bias repeated on every row. -/
def biasTile (x3 : Vec Ideal S256 .f32) : FVec Ideal S16x256 .f32 :=
  broadcastTo S16x256 (shapeCast S1x256 x3 shapeCasts_S256_S1x256 : FVec Ideal S1x256 .f32) broadcasts_S1x256_S16x256

/-- The step's stored value is the product plus the bias. -/
theorem pay_eq (x0 : Vec Ideal S16x4096 .f32) (x1 : Vec Ideal S256x4096 .i32) (x2 : Vec Ideal S256x128 .f32)
    (x4 : Vec Ideal S128x4096 .bf16) (x3 : Vec Ideal S256 .f32) :
    k0_pay1 (F := Ideal) x0 x1 x2 x4 x3 = addf (prod x0 x1 x2 x4) (biasTile x3) := rfl

/-! ## The operand indices of the two matrix products -/

local notation "D1" => dot_S256x128_S128x4096_S256x4096_1_0_0_1_n_n
local notation "D2" => dot_S16x4096_S256x4096_S16x256_1_1_0_0_n_n

theorem d1_lhs0 (j : S256x4096.Idx) (q : (D1).contr.Idx) : ((D1).lhsIdx j q 0).val = (j 0).val := by
  unfold DotDims.lhsIdx
  rw [dif_neg (show ¬(0 : Fin S256x128.rank) ∈ (D1).lhsBatch by decide),
    dif_pos (show (0 : Fin S256x128.rank) ∈ (D1).lhsNonContracting by decide)]
  rfl
theorem d1_rhs1 (j : S256x4096.Idx) (q : (D1).contr.Idx) : ((D1).rhsIdx j q 1).val = (j 1).val := by
  unfold DotDims.rhsIdx
  rw [dif_neg (show ¬(1 : Fin S128x4096.rank) ∈ (D1).rhsBatch by decide),
    dif_pos (show (1 : Fin S128x4096.rank) ∈ (D1).rhsNonContracting by decide)]
  rfl
theorem d2_lhs0 (j : S16x256.Idx) (q : (D2).contr.Idx) : ((D2).lhsIdx j q 0).val = (j 0).val := by
  unfold DotDims.lhsIdx
  rw [dif_neg (show ¬(0 : Fin S16x4096.rank) ∈ (D2).lhsBatch by decide),
    dif_pos (show (0 : Fin S16x4096.rank) ∈ (D2).lhsNonContracting by decide)]
  rfl
theorem d2_rhs0 (j : S16x256.Idx) (q : (D2).contr.Idx) : ((D2).rhsIdx j q 0).val = (j 1).val := by
  unfold DotDims.rhsIdx
  rw [dif_neg (show ¬(0 : Fin S256x4096.rank) ∈ (D2).rhsBatch by decide),
    dif_pos (show (0 : Fin S256x4096.rank) ∈ (D2).rhsNonContracting by decide)]
  rfl

/-! ## Each stage at an entry -/

/-- The spread scales at feature `o`, column `k`: the sum over the groups of scale times the 0/1 entry. -/
theorem scaleFull_apply (x2 : Vec Ideal S256x128 .f32) (x4 : Vec Ideal S128x4096 .bf16) (o : Fin 256) (k : Fin 4096) :
    scaleFull x2 x4 (ix2 o k) = ∑ g : Fin 128, x2 (ix2 o g) * x4 (ix2 g k) := by
  unfold scaleFull
  simp only [matmul]
  rw [Ideal.matmul_constant_zero_apply, ← Equiv.sum_comp (contrEquiv1 (D1) 128 rfl rfl).symm]
  refine Finset.sum_congr rfl fun g _ => ?_
  have hg := contrEquiv1_symm_val (D1) 128 rfl rfl g
  have el : (D1).lhsIdx (ix2 o k) ((contrEquiv1 (D1) 128 rfl rfl).symm g) = ix2 o g := funext fun a => Fin.ext (by
    match a with
    | ⟨0, _⟩ => exact d1_lhs0 _ _
    | ⟨1, _⟩ => exact ((D1).lhsIdx_val_of_single rfl _ _).trans hg)
  have er : (D1).rhsIdx (ix2 o k) ((contrEquiv1 (D1) 128 rfl rfl).symm g) = ix2 g k := funext fun a => Fin.ext (by
    match a with
    | ⟨0, _⟩ => exact ((D1).rhsIdx_val_of_single rfl _ _).trans hg
    | ⟨1, _⟩ => exact d1_rhs1 _ _)
  rw [el, er, shapeCast_self]
  rfl

/-- The tile's weight at feature `o`, column `k`. -/
theorem wTile_apply (x1 : Vec Ideal S256x4096 .i32) (x2 : Vec Ideal S256x128 .f32) (x4 : Vec Ideal S128x4096 .bf16)
    (o : Fin 256) (k : Fin 4096) :
    wTile x1 x2 x4 (ix2 o k)
      = ((((x1 (ix2 o k)).toInt : ℝ) : EReal) - ((8 : ℝ) : EReal)) * scaleFull x2 x4 (ix2 o k) := by
  unfold wTile
  rw [shapeCast_self]
  show (((((x1 (ix2 o k)).toInt : ℝ) : EReal)) - Ideal.ofBits .bf16 0x4100#16) * scaleFull x2 x4 (ix2 o k) = _
  rw [eight_bf16]

/-- The product at row `r`, feature `o`: the contraction over the 4096 columns. -/
theorem prod_apply (x0 : Vec Ideal S16x4096 .f32) (x1 : Vec Ideal S256x4096 .i32) (x2 : Vec Ideal S256x128 .f32)
    (x4 : Vec Ideal S128x4096 .bf16) (r : Fin 16) (o : Fin 256) :
    prod x0 x1 x2 x4 (ix2 r o) = ∑ k : Fin 4096, x0 (ix2 r k) * wTile x1 x2 x4 (ix2 o k) := by
  unfold prod
  simp only [matmul]
  rw [Ideal.matmul_constant_zero_apply, ← Equiv.sum_comp (contrEquiv1 (D2) 4096 rfl rfl).symm]
  refine Finset.sum_congr rfl fun k _ => ?_
  have hk := contrEquiv1_symm_val (D2) 4096 rfl rfl k
  have el : (D2).lhsIdx (ix2 r o) ((contrEquiv1 (D2) 4096 rfl rfl).symm k) = ix2 r k := funext fun a => Fin.ext (by
    match a with
    | ⟨0, _⟩ => exact d2_lhs0 _ _
    | ⟨1, _⟩ => exact ((D2).lhsIdx_val_of_single rfl _ _).trans hk)
  have er : (D2).rhsIdx (ix2 r o) ((contrEquiv1 (D2) 4096 rfl rfl).symm k) = ix2 o k := funext fun a => Fin.ext (by
    match a with
    | ⟨0, _⟩ => exact d2_rhs0 _ _
    | ⟨1, _⟩ => exact ((D2).rhsIdx_val_of_single rfl _ _).trans hk)
  rw [el, er, shapeCast_self]
  rfl

/-- The bias tile at row `r`, feature `o` is the feature's bias. -/
theorem biasTile_apply (x3 : Vec Ideal S256 .f32) (r : Fin 16) (o : Fin 256) : biasTile x3 (ix2 r o) = x3 (ix1 o) := by
  unfold biasTile
  refine (broadcastTo_apply _ broadcasts_S1x256_S16x256 (ix2 r o) (ix2 (0 : Fin 1) o) (fun a => ?_)).trans ?_
  · match a with
    | ⟨0, _⟩ => rfl
    | ⟨1, _⟩ => rfl
  · refine shapeCast_apply x3 shapeCasts_S256_S1x256 (ix2 (0 : Fin 1) o) (ix1 o) ?_
    rw [Shape.rowMajor_val_one, Shape.rowMajor_val_two]
    show o.val = 0 * 256 + o.val
    omega

/-- THE STEP AT AN ENTRY: row `r`, feature `o` of the tile. -/
theorem pay_apply (x0 : Vec Ideal S16x4096 .f32) (x1 : Vec Ideal S256x4096 .i32) (x2 : Vec Ideal S256x128 .f32)
    (x4 : Vec Ideal S128x4096 .bf16) (x3 : Vec Ideal S256 .f32) (r : Fin 16) (o : Fin 256) :
    k0_pay1 (F := Ideal) x0 x1 x2 x4 x3 (ix2 r o)
      = (∑ k : Fin 4096, x0 (ix2 r k)
            * (((((x1 (ix2 o k)).toInt : ℝ) : EReal) - ((8 : ℝ) : EReal)) * ∑ g : Fin 128, x2 (ix2 o g) * x4 (ix2 g k)))
          + x3 (ix1 o) := by
  rw [pay_eq]
  show prod x0 x1 x2 x4 (ix2 r o) + biasTile x3 (ix2 r o) = _
  rw [prod_apply, biasTile_apply]
  refine congrArg (· + x3 (ix1 o)) (Finset.sum_congr rfl fun k _ => ?_)
  rw [wTile_apply, scaleFull_apply]

end Cert.Dequant.Body

end
-- ==== Proof.HostDiv.lean ====
/-
  Which group a column lies in, as the host's integer instructions compute it.

  The 0/1 matrix that spreads a group's scale over the group's columns is built on the host from the column numbers
  `0 … 4095`: each is floor-divided by 32 — the truncating signed quotient, corrected by one where the operands' signs
  differ and the remainder is not zero — and compared with the group numbers `0 … 127`.  For a column number below 4096
  there is no correction and no wrap-around: the floor quotient of the word is the word of `k / 32`, so the comparison
  with group `g` reads one exactly when `k / 32 = g`.
-/
import Idealize.ShloMosaic.PureOps
import proofs.«158141_j71262097375897_2_alg».proof.Proof.Spec

noncomputable section

namespace Cert.Dequant

open Idealize.ShloMosaic

/-- The sign of a signed word, as a word: `0`, `-1` or `1`. -/
def sgn (x : BitVec 32) : BitVec 32 := if x = 0 then 0 else if x.msb then -1 else 1

/-- Floor division of a signed word by 32 the way it is computed from a truncating division: the truncated quotient,
    less one when the operands' signs differ and the remainder is not zero. -/
def floorDiv32 (x : BitVec 32) : BitVec 32 :=
  Scalar.select
    (IntOp.andi (IntOp.cmpi .ne (sgn x) (sgn 32#32)) (IntOp.cmpi .ne (IntOp.remsi .host x 32#32) 0#32))
    (IntOp.subi (IntOp.divsi .host x 32#32) 1#32)
    (IntOp.divsi .host x 32#32)

/-- On the words of the column numbers it is the word of the natural quotient (checked column by column). -/
theorem floorDiv32_ofNat : ∀ k : Fin 4096, floorDiv32 (BitVec.ofNat 32 k.val) = BitVec.ofNat 32 (k.val / 32) := by
  decide +kernel

/-- The comparison of a column's floor quotient with a group number, read as a number, is the indicator of the column
    lying in the group. -/
theorem indicator_word (k : Fin 4096) (g : Fin 128) :
    ((((IntOp.cmpi .eq (floorDiv32 (BitVec.ofNat 32 k.val)) (BitVec.ofNat 32 g.val)).toNat : ℝ)) : EReal)
      = if g = grp k then 1 else 0 := by
  rw [floorDiv32_ofNat]
  have hk := k.isLt
  have hg := g.isLt
  by_cases h : g = grp k
  · rw [if_pos h]
    have e : BitVec.ofNat 32 (k.val / 32) = BitVec.ofNat 32 g.val := by
      rw [h]; rfl
    rw [e]
    simp [IntOp.cmpi]
  · rw [if_neg h]
    have hne : BitVec.ofNat 32 (k.val / 32) ≠ BitVec.ofNat 32 g.val := fun e => h (Fin.ext (by
      have := congrArg BitVec.toNat e
      simp only [BitVec.toNat_ofNat] at this
      show g.val = k.val / 32
      omega))
    simp [IntOp.cmpi, hne]

end Cert.Dequant

end
-- ==== Proof.Entry.lean ====
/-
  The arrays as the grid finds them.

  Before the grid runs, the host prepares three of the five arrays the steps read:

    * the activations with the batch axis folded into the rows — `x2d[r, k] = x[0, r, k]`;
    * the quantised weights with group and position folded into one column axis — `q2d[o, k] = q[o, k / 32, k % 32]`,
      because position `p` of group `g` is column `32 g + p`;
    * the 0/1 matrix `e[g, k]`, one exactly when column `k` lies in group `g`: the column numbers floor-divided by 32
      and compared with the group numbers.

  The scales and the bias are passed as they are.
-/
import proofs.«158141_j71262097375897_2_alg».proof.Proof.Gen.KernelIdeal.Frame
import proofs.«158141_j71262097375897_2_alg».proof.Proof.HostDiv
import Idealize.ShloMosaic.Lib.StableHlo.Run
import Idealize.ShloMosaic.Lib.Pipeline.Value
import Idealize.ShloMosaic.Lib.ValueIdx

noncomputable section

namespace Cert.Dequant.Entry

open Cert.KernelIdeal Cert.KernelIdeal.Gen Idealize.ShloMosaic Idealize.ShloMosaic.TcCoe Idealize.SL.Sem
open Idealize.ShloMosaic.StableHlo Idealize.ShloMosaic.ValueIdx Cert.Dequant

variable (m : (ℓ : Loc nD τ sig) → Buf (Elt Ideal) ℓ)

/-! ## The 0/1 matrix, as a term -/

/-- The column numbers `0 … 4095` as a row. -/
def cols : IVec S1x4096 32 := broadcastInDim S1x4096 ![1] bcast_S4096_S1x4096_1 (iotaInDim S4096 32 0)

/-- The group size `32` repeated along the row. -/
def c32 : IVec S1x4096 32 := broadcastInDim S1x4096 ![] bcast_S_S1x4096 (id (constantI S_ 32 32#32))

/-- Each column number floor-divided by 32. -/
def colGroup : IVec S1x4096 32 :=
  select
    (andi (cmpi .ne (signi cols) (broadcastInDim S1x4096 ![] bcast_S_S1x4096 (signi (id (constantI S_ 32 32#32)))))
      (cmpi .ne (Host.remsi cols c32) (broadcastInDim S1x4096 ![] bcast_S_S1x4096 (constantI S_ 32 0#32))))
    (subi (Host.divsi cols c32) (broadcastInDim S1x4096 ![] bcast_S_S1x4096 (constantI S_ 32 1#32)))
    (Host.divsi cols c32)

/-- The group numbers `0 … 127` repeated along every row. -/
def groups : IVec S128x4096 32 :=
  broadcastInDim S128x4096 ![0, 1] bcast_S128x1_S128x4096_0_1 (broadcastInDim S128x1 ![0] bcast_S128_S128x1_0 (iotaInDim S128 32 0))

/-- The 0/1 matrix: the comparison of each column's group with each group number, as a float. -/
def onehot : FVec Ideal S128x4096 .bf16 :=
  uitofp .bf16 (cmpi .eq (broadcastInDim S128x4096 ![0, 1] bcast_S1x4096_S128x4096_0_1 colGroup) groups)

/-! ## The three prepared arrays -/

theorem act_eq (c : Dev nD) :
    (V m c main_v0 : S16x4096.Idx → EReal)
      = shapeCast S16x4096 (m ((c : Thread nD τ).loc main_arg0)) shapeCasts_S1x16x4096_S16x4096 := by
  dsimp only [V, V0]
  simp only [hostOps0, hostOps0_1, hostOps0_2, List.flatten_cons, List.flatten_nil, List.append_nil, List.cons_append,
    List.nil_append]
  after_results_simp
  rfl

theorem qw_eq (c : Dev nD) :
    (V m c main_v1 : S11008x4096.Idx → BitVec 32)
      = shapeCast S11008x4096 (m ((c : Thread nD τ).loc main_arg1)) shapeCasts_S11008x128x32_S11008x4096 := by
  dsimp only [V, V0]
  simp only [hostOps0, hostOps0_1, hostOps0_2, List.flatten_cons, List.flatten_nil, List.append_nil, List.cons_append,
    List.nil_append]
  after_results_simp
  rfl

set_option maxHeartbeats 4000000 in
theorem onehot_eq (c : Dev nD) : (V m c main_v10 : S128x4096.Idx → EReal) = onehot := by
  dsimp only [V, V0]
  simp only [hostOps0, hostOps0_1, hostOps0_2, List.flatten_cons, List.flatten_nil, List.append_nil, List.cons_append,
    List.nil_append]
  after_results_simp
  rfl

/-! ## Read at an entry -/

/-- The folded activations at row `r`, column `k`. -/
theorem act_apply (c : Dev nD) (r : Fin 16) (k : Fin 4096) :
    V m c main_v0 (ix2 r k) = m ((c : Thread nD τ).loc main_arg0) (ix3 (0 : Fin 1) r k) := by
  rw [act_eq]
  refine shapeCast_apply _ shapeCasts_S1x16x4096_S16x4096 (ix2 r k) (ix3 (0 : Fin 1) r k) ?_
  rw [Shape.rowMajor_val_three, Shape.rowMajor_val_two]
  show (0 * 16 + r.val) * 4096 + k.val = r.val * 4096 + k.val
  omega

/-- The folded quantised weights at feature `o`, column `k`. -/
theorem qw_apply (c : Dev nD) (o : Fin 11008) (k : Fin 4096) :
    V m c main_v1 (ix2 o k) = m ((c : Thread nD τ).loc main_arg1) (ix3 o (grp k) (pos k)) := by
  rw [qw_eq]
  refine shapeCast_apply _ shapeCasts_S11008x128x32_S11008x4096 (ix2 o k) (ix3 o (grp k) (pos k)) ?_
  rw [Shape.rowMajor_val_three, Shape.rowMajor_val_two]
  show (o.val * 128 + k.val / 32) * 32 + k.val % 32 = o.val * 4096 + k.val
  have := k.isLt
  omega

/-- A column's number. -/
theorem cols_apply (k : Fin 4096) : cols (ix2 (0 : Fin 1) k) = BitVec.ofNat 32 k.val := by
  unfold cols
  refine (broadcastInDim_apply _ bcast_S4096_S1x4096_1 _ (ix2 (0 : Fin 1) k) (ix1 k) (fun a => ?_)).trans rfl
  match a with
  | ⟨0, _⟩ => show k.val = if (4096 : Nat) = 1 then 0 else k.val; rw [if_neg (by decide)]

/-- A column's floor quotient is the scalar floor division of its number. -/
theorem colGroup_apply (j : S1x4096.Idx) : colGroup j = floorDiv32 (cols j) := rfl

/-- A group's number. -/
theorem groups_apply (g : Fin 128) (k : Fin 4096) : groups (ix2 g k) = BitVec.ofNat 32 g.val := by
  unfold groups
  refine (broadcastInDim_apply _ bcast_S128x1_S128x4096_0_1 _ (ix2 g k) (ix2 g (0 : Fin 1)) (fun a => ?_)).trans ?_
  · match a with
    | ⟨0, _⟩ => show g.val = if (128 : Nat) = 1 then 0 else g.val; rw [if_neg (by decide)]
    | ⟨1, _⟩ => show 0 = if (1 : Nat) = 1 then 0 else k.val; rw [if_pos rfl]
  · refine (broadcastInDim_apply _ bcast_S128_S128x1_0 _ (ix2 g (0 : Fin 1)) (ix1 g) (fun a => ?_)).trans rfl
    match a with
    | ⟨0, _⟩ => show g.val = if (128 : Nat) = 1 then 0 else g.val; rw [if_neg (by decide)]

/-- THE 0/1 MATRIX AT AN ENTRY: one exactly when column `k` lies in group `g`. -/
theorem onehot_apply (g : Fin 128) (k : Fin 4096) : onehot (ix2 g k) = if g = grp k then 1 else 0 := by
  have e1 : broadcastInDim S128x4096 ![0, 1] bcast_S1x4096_S128x4096_0_1 colGroup (ix2 g k) = colGroup (ix2 (0 : Fin 1) k) :=
    broadcastInDim_apply _ bcast_S1x4096_S128x4096_0_1 _ (ix2 g k) (ix2 (0 : Fin 1) k) (fun a => by
      match a with
      | ⟨0, _⟩ => show 0 = if (1 : Nat) = 1 then 0 else g.val; rw [if_pos rfl]
      | ⟨1, _⟩ => show k.val = if (4096 : Nat) = 1 then 0 else k.val; rw [if_neg (by decide)])
  show ((((IntOp.cmpi .eq (broadcastInDim S128x4096 ![0, 1] bcast_S1x4096_S128x4096_0_1 colGroup (ix2 g k))
      (groups (ix2 g k))).toNat : ℝ)) : EReal) = _
  rw [e1, colGroup_apply, cols_apply, groups_apply]
  exact indicator_word k g

end Cert.Dequant.Entry

end
-- ==== Proof.Blocks.lean ====
/-
  From grid steps to the whole result.

  Grid step `t` (of 43) sees all 16 rows of the folded activations, features `256 t … 256 t + 255` of the folded
  quantised weights, of the scales and of the bias, and the whole 0/1 matrix; it writes rows `0 … 15`, columns
  `256 t … 256 t + 255` of the 16 × 11008 result.  Entry `(r, o)` of what it writes is

      (∑ k, x[0, r, k] * ((q[o', k / 32, k % 32] - 8) * ∑ g, s[o', g] * e[g, k])) + b[o'],     o' = 256 t + o,

  and since `e[g, k]` is one exactly at `g = k / 32`, the inner sum is `s[o', k / 32]`: the entry is the specification's
  `entry` at `(r, o')`.  So every step writes its block of ONE function of the four arguments; the 43 blocks tile the
  columns, hence the array ends holding that function.  After the grid the host gives the result its batch axis back.
-/
import proofs.«158141_j71262097375897_2_alg».proof.Proof.Gen.KernelIdeal.Frame
import proofs.«158141_j71262097375897_2_alg».proof.Proof.Payload
import proofs.«158141_j71262097375897_2_alg».proof.Proof.Entry
import Idealize.ShloMosaic.Lib.Pipeline.Value
import Idealize.ShloMosaic.Lib.StableHlo.Run

set_option maxRecDepth 16384

noncomputable section

namespace Cert.Dequant.Blocks

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a <;> rfl

/-- Where each window's block sits at step `t`: the activations and the 0/1 matrix do not move, the weights, scales
    and bias move one block of 256 features per step, and so do the result's columns. -/
theorem block_positions : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- A feature of step `t`'s tile as a feature of the layer. -/
def feat (t : Fin cfg0.N) (o : Fin 256) : Fin 11008 :=
  ⟨t.val * 256 + o.val, by
    have ht : t.val < 43 := lt_of_lt_of_eq t.isLt N_0
    have ho := o.isLt
    omega⟩

/-! ## The five input blocks of a step, read at an entry -/

theorem blk_act (c : Dev nD) (t : Fin cfg0.N) (r : Fin 16) (k : Fin 4096) :
    (iblk m c 0 t : Vec Ideal S16x4096 .f32) (ix2 r k) = m ((c : Thread nD τ).loc main_arg0) (ix3 (0 : Fin 1) r k) := by
  obtain ⟨e0, e1, -⟩ := block_positions t
  rw [← Entry.act_apply m c r k]
  unfold iblk
  rw [View.read_apply]
  show V m c main_v0 _ = V m c main_v0 _
  refine congrArg (V m c main_v0) (funext fun a => Fin.ext ?_)
  match a with
  | ⟨0, _⟩ => show win0_0.index t (0 : Fin 2) * 16 + 1 * r.val = r.val; rw [e0]; omega
  | ⟨1, _⟩ => show win0_0.index t (1 : Fin 2) * 4096 + 1 * k.val = k.val; rw [e1]; omega

theorem blk_qw (c : Dev nD) (t : Fin cfg0.N) (o : Fin 256) (k : Fin 4096) :
    (iblk m c 1 t : Vec Ideal S256x4096 .i32) (ix2 o k)
      = m ((c : Thread nD τ).loc main_arg1) (ix3 (feat t o) (grp k) (pos k)) := by
  obtain ⟨-, -, e0, e1, -⟩ := block_positions t
  rw [← Entry.qw_apply m c (feat t o) k]
  unfold iblk
  rw [View.read_apply]
  show V m c main_v1 _ = V m c main_v1 _
  refine congrArg (V m c main_v1) (funext fun a => Fin.ext ?_)
  match a with
  | ⟨0, _⟩ => show win0_1.index t (0 : Fin 2) * 256 + 1 * o.val = t.val * 256 + o.val; rw [e0]; omega
  | ⟨1, _⟩ => show win0_1.index t (1 : Fin 2) * 4096 + 1 * k.val = k.val; rw [e1]; omega

theorem blk_sc (c : Dev nD) (t : Fin cfg0.N) (o : Fin 256) (g : Fin 128) :
    (iblk m c 2 t : Vec Ideal S256x128 .f32) (ix2 o g) = m ((c : Thread nD τ).loc main_arg2) (ix2 (feat t o) g) := by
  obtain ⟨-, -, -, -, e0, e1, -⟩ := block_positions t
  rw [← V_main_arg2 m c]
  unfold iblk
  rw [View.read_apply]
  show V m c main_arg2 _ = V m c main_arg2 _
  refine congrArg (V m c main_arg2) (funext fun a => Fin.ext ?_)
  match a with
  | ⟨0, _⟩ => show win0_2.index t (0 : Fin 2) * 256 + 1 * o.val = t.val * 256 + o.val; rw [e0]; omega
  | ⟨1, _⟩ => show win0_2.index t (1 : Fin 2) * 128 + 1 * g.val = g.val; rw [e1]; omega

theorem blk_bias (c : Dev nD) (t : Fin cfg0.N) (o : Fin 256) :
    (iblk m c 3 t : Vec Ideal S256 .f32) (ix1 o) = m ((c : Thread nD τ).loc main_arg3) (ix1 (feat t o)) := by
  obtain ⟨-, -, -, -, -, -, e0, -⟩ := block_positions t
  rw [← V_main_arg3 m c]
  unfold iblk
  rw [View.read_apply]
  show V m c main_arg3 _ = V m c main_arg3 _
  refine congrArg (V m c main_arg3) (funext fun a => Fin.ext ?_)
  match a with
  | ⟨0, _⟩ => show win0_3.index t (0 : Fin 1) * 256 + 1 * o.val = t.val * 256 + o.val; rw [e0]; omega

theorem blk_onehot (c : Dev nD) (t : Fin cfg0.N) (g : Fin 128) (k : Fin 4096) :
    (iblk m c 4 t : Vec Ideal S128x4096 .bf16) (ix2 g k) = (if g = grp k then (1 : EReal) else 0) := by
  obtain ⟨-, -, -, -, -, -, -, e0, e1, -⟩ := block_positions t
  rw [← Entry.onehot_apply g k, ← Entry.onehot_eq m c]
  unfold iblk
  rw [View.read_apply]
  show V m c main_v10 _ = V m c main_v10 _
  refine congrArg (V m c main_v10) (funext fun a => Fin.ext ?_)
  match a with
  | ⟨0, _⟩ => show win0_4.index t (0 : Fin 2) * 128 + 1 * g.val = g.val; rw [e0]; omega
  | ⟨1, _⟩ => show win0_4.index t (1 : Fin 2) * 4096 + 1 * k.val = k.val; rw [e1]; omega

/-! ## What a step writes is its block of one function -/

/-- The 16 × 11008 result as one function of the four arguments. -/
def flat (c : Dev nD) : S16x11008.Idx → EReal := fun j =>
  entry (m ((c : Thread nD τ).loc main_arg0)) (m ((c : Thread nD τ).loc main_arg1)) (m ((c : Thread nD τ).loc main_arg2))
    (m ((c : Thread nD τ).loc main_arg3)) ⟨(j 0).val, (j 0).isLt⟩ ⟨(j 1).val, (j 1).isLt⟩

theorem flat_at (c : Dev nD) (j : S16x11008.Idx) (r : Fin 16) (o : Fin 11008) (h0 : (j 0).val = r.val) (h1 : (j 1).val = o.val) :
    flat m c j = entry (m ((c : Thread nD τ).loc main_arg0)) (m ((c : Thread nD τ).loc main_arg1))
      (m ((c : Thread nD τ).loc main_arg2)) (m ((c : Thread nD τ).loc main_arg3)) r o := by
  unfold flat
  rw [show (⟨(j 0).val, (j 0).isLt⟩ : Fin 16) = r from Fin.ext h0, show (⟨(j 1).val, (j 1).isLt⟩ : Fin 11008) = o from Fin.ext h1]

/-- Entry `(r, o)` of what step `t` computes from its blocks is the specification's entry at row `r`, feature
    `256 t + o`: the 0/1 matrix picks the scale of the column's group, and the two factors of the weight commute. -/
theorem step_entry (c : Dev nD) (t : Fin cfg0.N) (r : Fin 16) (o : Fin 256) :
    k0_pay1 (F := Ideal) (iblk m c 0 t) (iblk m c 1 t) (iblk m c 2 t) (iblk m c 4 t) (iblk m c 3 t) (ix2 r o)
      = entry (m ((c : Thread nD τ).loc main_arg0)) (m ((c : Thread nD τ).loc main_arg1))
          (m ((c : Thread nD τ).loc main_arg2)) (m ((c : Thread nD τ).loc main_arg3)) r (feat t o) := by
  refine (Body.pay_apply (iblk m c 0 t) (iblk m c 1 t) (iblk m c 2 t) (iblk m c 4 t) (iblk m c 3 t) r o).trans ?_
  unfold entry
  rw [blk_bias m c t o]
  refine congrArg (· + m ((c : Thread nD τ).loc main_arg3) (ix1 (feat t o))) (Finset.sum_congr rfl fun k _ => ?_)
  rw [blk_act m c t r k, blk_qw m c t o k,
    sum_mul_onehot (fun g => (iblk m c 2 t : Vec Ideal S256x128 .f32) (ix2 o g))
      (fun g => (iblk m c 4 t : Vec Ideal S128x4096 .bf16) (ix2 g k)) (grp k) (fun g => blk_onehot m c t g k),
    blk_sc m c t o (grp k)]
  unfold weight
  have key : ∀ X A B : EReal, X * (A * B) = X * (B * A) := fun X A B => by rw [mul_comm A B]
  exact key _ _ _

/-- WHAT STEP `t` WRITES BACK is block `t` of `flat`. -/
theorem step_writes_tile (c : Dev nD) (t : Fin cfg0.N) :
    (dats m 0 c).flushed 5 t = ((cfg0.win 5).blk t).view.read (Elt Ideal) (flat m c) := by
  obtain ⟨-, -, -, -, -, -, -, -, -, e0, e1⟩ := block_positions t
  show (cfg0.win 5).cut (grid0.coords t) ((dats m 0 c).after 5 t) = _
  rw [after0_5]
  unfold out0_5
  rw [View.canon_unit_zero zero_offsets2]
  simp only [View.ld_unit_zero (S := S16x4096) zero_offsets2, View.ld_unit_zero (S := S256x4096) zero_offsets2,
    View.ld_unit_zero (S := S256x128) zero_offsets2, View.ld_unit_zero (S := S128x4096) zero_offsets2, View.ld_unit_zero (S := S256) zero_offsets1]
  funext y
  obtain ⟨r, o, rfl⟩ : ∃ (r : Fin 16) (o : Fin 256), y = ix2 r o := ⟨y 0, y 1, eq_ix2 y⟩
  show k0_pay1 (F := Ideal) (iblk m c 0 t) (iblk m c 1 t) (iblk m c 2 t) (iblk m c 4 t) (iblk m c 3 t) (ix2 r o)
    = flat m c (((cfg0.win 5).blk t).view.emb (ix2 r o))
  rw [step_entry m c t r o]
  refine (flat_at m c _ r (feat t o) ?_ ?_).symm
  · show win0_5.index t (0 : Fin 2) * 16 + 1 * r.val = r.val; rw [e0]; omega
  · show win0_5.index t (1 : Fin 2) * 256 + 1 * o.val = t.val * 256 + o.val; rw [e1]; omega

/-! ## The 43 blocks tile the result -/

theorem mem_tile (t : Fin cfg0.N) (i : S16x11008.Idx) :
    i ∈ ((cfg0.win 5).blk t).view.set ↔ ∀ a : Fin 2, win0_5.index t a * S16x256.size a ≤ (i a).val
      ∧ (i a).val < win0_5.index t a * S16x256.size a + S16x256.size a := by
  show i ∈ ((View.whole main_v11).slice (win0_5.rect t)).set ↔ _
  rw [View.set_slice_whole, Rect.mem_set_unit]
  exact Iff.rfl

/-- Column `o` of the result is written by step `o / 256`. -/
theorem tiles_cover (i : S16x11008.Idx) : ∃ t : Fin cfg0.N, (cfg0.win 5).flush t = true ∧ i ∈ ((cfg0.win 5).blk t).view.set := by
  have h0 : (i 0).val < 16 := (i 0).isLt
  have h1 : (i 1).val < 11008 := (i 1).isLt
  have hN : cfg0.N = 43 := N_0
  obtain ⟨t, ht⟩ : ∃ t : Fin cfg0.N, t.val = (i 1).val / 256 := ⟨⟨(i 1).val / 256, by rw [hN]; omega⟩, rfl⟩
  obtain ⟨-, -, -, -, -, -, -, -, -, e0, e1⟩ := block_positions t
  refine ⟨t, flush0_5 t, ?_⟩
  rw [mem_tile]
  intro a
  match a with
  | ⟨0, _⟩ =>
    show win0_5.index t (0 : Fin 2) * 16 ≤ (i 0).val ∧ (i 0).val < win0_5.index t (0 : Fin 2) * 16 + 16
    rw [e0]; omega
  | ⟨1, _⟩ =>
    show win0_5.index t (1 : Fin 2) * 256 ≤ (i 1).val ∧ (i 1).val < win0_5.index t (1 : Fin 2) * 256 + 256
    rw [e1, ht]; omega

/-- THE ARRAY AFTER THE GRID is `flat`. -/
theorem grid_result (c : Dev nD) : (dats m 0 c).arrAt 5 cfg0.N = flat m c :=
  (dats m 0 c).arrAt_eq_of_cover 5 (flat m c) (fun t _ => step_writes_tile m c t) tiles_cover

/-! ## The batch axis given back -/

/-- The result buffer after the host's last line: the array the grid wrote, reshaped. -/
theorem result_reshaped (c : Dev nD) :
    Pipeline.afterTail₀ cfgs (dats m) 0 (V0 m) [hostOps1] c main_v12
      = shapeCast S1x16x11008 (flat m c) shapeCasts_S16x11008_S1x16x11008 := by
  unfold Pipeline.afterTail₀
  show StableHlo.after hostOps1 _ (Proc.devRef .tc main_v12) = _
  after_results
  have hw : Pipeline.withArrays (cfgs 0).spec c (V0 m c) (fun w => (dats m 0 c).arrAt w (cfgs 0).N) (Proc.devRef .tc main_v11)
      = flat m c :=
    (Pipeline.withArrays_arr spec0 launch0.win.arr_inj c _ _ 5).trans (grid_result m c)
  show shapeCast S1x16x11008 (Pipeline.withArrays (cfgs 0).spec c (V0 m c) (fun w => (dats m 0 c).arrAt w (cfgs 0).N)
      (Proc.devRef .tc main_v11)) shapeCasts_S16x11008_S1x16x11008 = _
  rw [hw]

end Cert.Dequant.Blocks

end
-- ==== Proof.KernelRun.lean ====
/-
  The idealized kernel's run, read: its result buffer ends at the specification of the four arguments.

  The grid leaves the 16 × 11008 array at `flat` (one `entry` per row and feature); the host's last line reshapes it to
  1 × 16 × 11008, which only renames entry `(r, o)` as `(0, r, o)`; and that is the specification `layer`.  The four
  arguments end as they were launched: two are staged by input windows that never write back, two are read only by the
  host's reshapes.
-/
import proofs.«158141_j71262097375897_2_alg».proof.Proof.Blocks

noncomputable section

namespace Cert.Dequant.Run

open Cert.KernelIdeal Cert.KernelIdeal.Gen Idealize.ShloMosaic Idealize.ShloMosaic.TcCoe Idealize.SL.Sem
open Idealize.ShloMosaic.ValueIdx Cert.Dequant

variable (m : (ℓ : Loc nD τ sig) → Buf (Elt Ideal) ℓ) (ρ : Dev nD → PrngReg)

/-- The reshaped array is the specification. -/
theorem reshape_flat (c : Dev nD) :
    shapeCast S1x16x11008 (Blocks.flat m c) shapeCasts_S16x11008_S1x16x11008
      = layer (m ((c : Thread nD τ).loc main_arg0)) (m ((c : Thread nD τ).loc main_arg1))
          (m ((c : Thread nD τ).loc main_arg2)) (m ((c : Thread nD τ).loc main_arg3)) := by
  funext i
  have h0 : (i 0).val < 1 := (i 0).isLt
  refine (shapeCast_apply _ shapeCasts_S16x11008_S1x16x11008 i
    (ix2 (⟨(i 1).val, (i 1).isLt⟩ : Fin 16) (⟨(i 2).val, (i 2).isLt⟩ : Fin 11008)) ?_).trans ?_
  · rw [Shape.rowMajor_val_two, Shape.rowMajor_val_three]
    show (i 1).val * 11008 + (i 2).val = ((i 0).val * 16 + (i 1).val) * 11008 + (i 2).val
    omega
  · exact Blocks.flat_at m c _ ⟨(i 1).val, (i 1).isLt⟩ ⟨(i 2).val, (i 2).isLt⟩ rfl rfl

/-- THE RUN: every weakly fair execution terminates with the result at the specification and the arguments unchanged. -/
theorem kernel_run : θ_run defs (onTc (τ := τ) (main (F := Ideal))) ⟨m, fun _ => 0, ρ⟩ fun r => ∀ c : Dev nD,
      r.2.mem ((c.tc : Thread nD τ).loc main_v12)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v12 (Pipeline.mem_restRefs_of main_v12 (by decide) (by decide))).trans (Blocks.result_reshaped m c)).trans
        (reshape_flat m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Dequant.Run

end
-- ==== Proof.lean ====
/-
  A linear layer with 4-bit-style quantised weights — groups of 32 integers sharing one scale, zero point 8 — computed by
  a tiled kernel and by a plain reference, proved equal on the extended reals.

  Both programs compute, for row `r` and output feature `o`,

      y[0, r, o] = (∑ k, x[0, r, k] * (s[o, k / 32] * (q[o, k / 32, k % 32] - 8))) + b[o]

  (Proof/Spec.lean).  The reference does so literally (Proof/RefIsSpec.lean).  The kernel walks the features in 43 tiles
  of 256; in a tile it spreads the scales over the columns by a matrix product with the 0/1 matrix "column k lies in group
  g" that the host builds from integer floor divisions (Proof/HostDiv.lean, Proof/Entry.lean), multiplies by `q - 8`,
  contracts against the activations and adds the bias (Proof/Payload.lean).  Summing a family against a one-hot family
  picks one member — `a * 0 = 0` and `a * 1 = a` hold for every extended real —, so the spread scale at column `k` is
  `s[o, k / 32]`; the two factors of a weight commute; and the tiles' blocks cover the result (Proof/Blocks.lean,
  Proof/KernelRun.lean).  No step needs the inputs to be finite.

  The three frame claims are the generated frame runs (the reference's with its result dropped); the idealization rewrote
  nothing, so there is nothing to preserve.
-/
import proofs.«158141_j71262097375897_2_alg».proof.Defs
import proofs.«158141_j71262097375897_2_alg».proof.Proof.Gen.Kernel
import proofs.«158141_j71262097375897_2_alg».proof.Proof.Gen.Kernel.Skeleton
import proofs.«158141_j71262097375897_2_alg».proof.Proof.Gen.Kernel.Launch
import proofs.«158141_j71262097375897_2_alg».proof.Proof.Gen.Kernel.Points
import proofs.«158141_j71262097375897_2_alg».proof.Proof.Gen.Kernel.Frame
import proofs.«158141_j71262097375897_2_alg».proof.Proof.Gen.KernelIdeal
import proofs.«158141_j71262097375897_2_alg».proof.Proof.Gen.KernelIdeal.Skeleton
import proofs.«158141_j71262097375897_2_alg».proof.Proof.Gen.KernelIdeal.Launch
import proofs.«158141_j71262097375897_2_alg».proof.Proof.Gen.KernelIdeal.Points
import proofs.«158141_j71262097375897_2_alg».proof.Proof.Gen.KernelIdeal.Frame
import proofs.«158141_j71262097375897_2_alg».proof.Proof.Gen.ReferenceIdeal
import proofs.«158141_j71262097375897_2_alg».proof.Proof.Gen.ReferenceIdeal.Run
import proofs.«158141_j71262097375897_2_alg».proof.Proof.Gen.ReferenceIdeal.Read
import proofs.«158141_j71262097375897_2_alg».proof.Proof.Gen.Pre_finite_inputs
import proofs.«158141_j71262097375897_2_alg».proof.Proof.RefIsSpec
import proofs.«158141_j71262097375897_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the specification of their arguments, and the arguments agree. -/
theorem algebraic : Cert.algebraic_KernelIdeal_ReferenceIdeal := by
  intro m ρ m' ρ' _ hagree
  refine ⟨_, Cert.Dequant.Run.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Dequant.Ref.ref_is_spec, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
